-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x128 .f32) (main_arg3 : FVec F S128 .f32) (main_arg4 : FVec F S128x64 .f32) (main_arg5 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x512 : Shape := ⟨2, ![2000, 512]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x128_S2000x128_1_0_0_1_n_n_wf : DotDims.WF S2000x512 S512x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The kernel program's run with its result named.

  The program is eight stretches in a row: three of host operations, the first matrix-product region, two of host
  operations, the second matrix-product region, and a last stretch of host operations. The contents of every buffer at
  each boundary are a fold through the stretches from the launch memory (the generated `W0 … W8`): a host stretch
  applies its operations, a region replaces its output array by what its write-backs leave and keeps every other
  buffer. Every weakly fair execution ends with every unscoped buffer at the last boundary's contents `W8`; read at the
  result buffer that names the result, read at the argument buffers it says they end as launched.
-/
import proofs.«102102_j13365938225231_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and the six argument arrays as launched: the launch theorem over the program's segments, the
    last thread state read against the final memory at the result buffer and at each argument. -/
theorem run : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Named

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.FirstProduct.lean ====
/-
  The first matrix product, x · W1, as the kernel forms it: block of rows by block of rows.

  The rows of the left factor are cut into 25 blocks of 2000 rows; grid point `t` multiplies block `t` by the
  whole right factor and writes the 2000 × 128 result back as block `t` of the output. A row of a product depends on
  that row of the left factor alone, so entry `(2000·t + r, j)` of the output is the inner product of row `2000·t + r` of the
  left factor with column `j` of the right factor — the same entry of the product formed in one piece. The blocks cover every row, so the
  output array after the last write-back IS that product. (The operands are narrowed to a shorter float format on
  the way into the multiplier; on the extended reals a change of format changes nothing.)
-/
import proofs.«102102_j13365938225231_1_alg».proof.Proof.Gen.KernelIdeal.Frame
import proofs.«102102_j13365938225231_1_alg».proof.Proof.LibInnerProducts
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx Idealize.ShloMosaic.InnerProducts
open scoped BigOperators

namespace Cert.KernelIdeal.FirstProduct

open Cert.KernelIdeal Cert.KernelIdeal.Gen

-- the buffer contents the region is entered with: any
variable (V : (c : Dev nD) → (b : Ref sig .tc) → Buf (Elt Ideal) ((c : Thread nD τ).loc b))

theorem zero_offsets : (![0, 0] : Fin 2 → Nat) = fun _ => 0 := funext fun a => by fin_cases a <;> rfl

/-- What the body computes from a row block `x0` and the right factor `x1`, at `(r, j)`: row `r` of the block against
    column `j`. -/
theorem body_apply (x0 : Vec Ideal S2000x512 .f32) (x1 : Vec Ideal S512x128 .f32) (r : Fin 2000) (j : Fin 128) :
    k0_pay1 x0 x1 (ix2 r j) = ∑ d : Fin 512, x0 (ix2 r d) * x1 (ix2 d j) := by
  unfold k0_pay1
  exact (matmul_zero_apply dot_S2000x512_S512x128_S2000x128_1_0_0_1_n_n rfl none _ _ r j).trans (Finset.sum_congr rfl fun d _ => rfl)

/-- If row `r` of the block is row `p` of the whole left factor `X`, and the block's right factor is the whole right
    factor `W`, the body's entry `(r, j)` is entry `(p, j)` of the product `X · W` formed in one piece. -/
theorem body_is_product_row (D : DotDims S50000x512 S512x128 S50000x128) (hD : D = DotDims.plain 50000 512 128)
    (X : FVec Ideal S50000x512 .f32) (W : FVec Ideal S512x128 .f32)
    (x0 : Vec Ideal S2000x512 .f32) (x1 : Vec Ideal S512x128 .f32) (r : Fin 2000) (j : Fin 128) (p : Fin 50000)
    (h0 : ∀ d : Fin 512, x0 (ix2 r d) = X (ix2 p d)) (h1 : ∀ d : Fin 512, x1 (ix2 d j) = W (ix2 d j)) :
    k0_pay1 x0 x1 (ix2 r j) = Host.dotGeneral D none X W (ix2 p j) := by
  rw [body_apply, dotGeneral_apply D hD none X W p j]
  exact Finset.sum_congr rfl fun d _ => by rw [h0 d, h1 d]

/-- Where each window's block sits at grid point `t`: the left factor's and the output's at row block `t`, the right
    factor's always at the origin. Decided once over the grid. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 25 := Nat.lt_of_lt_of_eq t.isLt N_0

/-- What grid point `t` writes back is block `t` of the product of the whole arrays the region was entered with. -/
theorem flushed_eq (D : DotDims S50000x512 S512x128 S50000x128) (hD : D = DotDims.plain 50000 512 128) (c : Dev nD) (t : Fin cfg0.N) :
    (dat0 V c).flushed 2 t = ((cfg0.win 2).blk t).view.read (Elt Ideal)
      (Host.dotGeneral (F := Ideal) (φ₁ := .f32) (φ₂ := .f32) D none (V c main_arg0 : FVec Ideal S50000x512 .f32) (V c main_arg2 : FVec Ideal S512x128 .f32)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x128) zero_offsets]
  obtain ⟨e0, e1, e2, e3, e4, e5⟩ := block_positions t
  have ht := point_lt t
  funext j
  obtain ⟨r, q, rfl⟩ : ∃ (r : Fin 2000) (q : Fin 128), j = ix2 r q := ⟨j 0, j 1, eq_ix2 j⟩
  have hr := r.isLt
  have hq := q.isLt
  show k0_pay1 (iblk0 V c 0 t) (iblk0 V c 1 t) (ix2 r q)
    = Host.dotGeneral (F := Ideal) (φ₁ := .f32) (φ₂ := .f32) D none (V c main_arg0 : FVec Ideal S50000x512 .f32) (V c main_arg2 : FVec Ideal S512x128 .f32) (((cfg0.win 2).blk t).view.emb (ix2 r q))
  have hp : ((cfg0.win 2).blk t).view.emb (ix2 r q) = ix2 (⟨2000 * t.val + r.val, by omega⟩ : Fin 50000) q := by
    funext a; apply Fin.ext
    match a with
    | ⟨0, _⟩ => show win0_2.index t (0 : Fin 2) * 2000 + 1 * r.val = 2000 * t.val + r.val; omega
    | ⟨1, _⟩ => show win0_2.index t (1 : Fin 2) * 128 + 1 * q.val = q.val; omega
  rw [hp]
  refine body_is_product_row D hD (V c main_arg0) (V c main_arg2) (iblk0 V c 0 t) (iblk0 V c 1 t) r q _ (fun d => ?_) (fun d => ?_)
  · have hd := d.isLt
    show V c main_arg0 (((cfg0.win 0).blk t).view.emb (ix2 r d)) = V c main_arg0 (ix2 (⟨2000 * t.val + r.val, by omega⟩ : Fin 50000) d)
    refine congrArg (V c main_arg0) ?_
    funext a; apply Fin.ext
    match a with
    | ⟨0, _⟩ => show win0_0.index t (0 : Fin 2) * 2000 + 1 * r.val = 2000 * t.val + r.val; omega
    | ⟨1, _⟩ => show win0_0.index t (1 : Fin 2) * 512 + 1 * d.val = d.val; omega
  · have hd := d.isLt
    show V c main_arg2 (((cfg0.win 1).blk t).view.emb (ix2 d q)) = V c main_arg2 (ix2 d q)
    refine congrArg (V c main_arg2) ?_
    funext a; apply Fin.ext
    match a with
    | ⟨0, _⟩ => show win0_1.index t (0 : Fin 2) * 512 + 1 * d.val = d.val; omega
    | ⟨1, _⟩ => show win0_1.index t (1 : Fin 2) * 128 + 1 * q.val = q.val; omega

/-- An index of the output array lies in point `t`'s block iff each coordinate is in the block's range. -/
theorem mem_block (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v30).slice (win0_2.rect t)).set ↔ _
  rw [View.set_slice_whole, Rect.mem_set_unit]
  exact Iff.rfl

/-- Every entry of the output is written: row `p` by grid point `p / 2000`. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  obtain ⟨t, htv⟩ : ∃ t : Fin cfg0.N, t.val = (i 0).val / 2000 := ⟨⟨(i 0).val / 2000, by rw [hN]; omega⟩, rfl⟩
  obtain ⟨e0, e1, e2, e3, e4, e5⟩ := block_positions t
  refine ⟨t, flush0_2 t, ?_⟩
  rw [mem_block]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- The output array after the region: the product, formed in one piece, of the two arrays the region was entered with. -/
theorem product_array (D : DotDims S50000x512 S512x128 S50000x128) (hD : D = DotDims.plain 50000 512 128) (c : Dev nD) :
    (dat0 V c).arrAt 2 cfg0.N = Host.dotGeneral (F := Ideal) (φ₁ := .f32) (φ₂ := .f32) D none (V c main_arg0 : FVec Ideal S50000x512 .f32) (V c main_arg2 : FVec Ideal S512x128 .f32) :=
  (dat0 V c).arrAt_eq_of_cover 2 (Host.dotGeneral (F := Ideal) (φ₁ := .f32) (φ₂ := .f32) D none (V c main_arg0 : FVec Ideal S50000x512 .f32) (V c main_arg2 : FVec Ideal S512x128 .f32))
    (fun t _ => flushed_eq V D hD c t) covered

end Cert.KernelIdeal.FirstProduct

end
-- ==== Proof.SecondProduct.lean ====
/-
  The second matrix product, relu(…) · W2, as the kernel forms it: block of rows by block of rows.

  The rows of the left factor are cut into 10 blocks of 5000 rows; grid point `t` multiplies block `t` by the
  whole right factor and writes the 5000 × 64 result back as block `t` of the output. A row of a product depends on
  that row of the left factor alone, so entry `(5000·t + r, j)` of the output is the inner product of row `5000·t + r` of the
  left factor with column `j` of the right factor — the same entry of the product formed in one piece. The blocks cover every row, so the
  output array after the last write-back IS that product. (The operands are narrowed to a shorter float format on
  the way into the multiplier; on the extended reals a change of format changes nothing.)
-/
import proofs.«102102_j13365938225231_1_alg».proof.Proof.Gen.KernelIdeal.Frame
import proofs.«102102_j13365938225231_1_alg».proof.Proof.LibInnerProducts
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx Idealize.ShloMosaic.InnerProducts
open scoped BigOperators

namespace Cert.KernelIdeal.SecondProduct

open Cert.KernelIdeal Cert.KernelIdeal.Gen

-- the buffer contents the region is entered with: any
variable (V : (c : Dev nD) → (b : Ref sig .tc) → Buf (Elt Ideal) ((c : Thread nD τ).loc b))

theorem zero_offsets : (![0, 0] : Fin 2 → Nat) = fun _ => 0 := funext fun a => by fin_cases a <;> rfl

/-- What the body computes from a row block `x0` and the right factor `x1`, at `(r, j)`: row `r` of the block against
    column `j`. -/
theorem body_apply (x0 : Vec Ideal S5000x128 .f32) (x1 : Vec Ideal S128x64 .f32) (r : Fin 5000) (j : Fin 64) :
    k1_pay1 x0 x1 (ix2 r j) = ∑ d : Fin 128, x0 (ix2 r d) * x1 (ix2 d j) := by
  unfold k1_pay1
  -- the block is first recast to its own shape, which changes nothing
  rw [shapeCast_self]
  exact (matmul_zero_apply dot_S5000x128_S128x64_S5000x64_1_0_0_1_n_n rfl none _ _ r j).trans (Finset.sum_congr rfl fun d _ => rfl)

/-- If row `r` of the block is row `p` of the whole left factor `X`, and the block's right factor is the whole right
    factor `W`, the body's entry `(r, j)` is entry `(p, j)` of the product `X · W` formed in one piece. -/
theorem body_is_product_row (D : DotDims S50000x128 S128x64 S50000x64) (hD : D = DotDims.plain 50000 128 64)
    (X : FVec Ideal S50000x128 .f32) (W : FVec Ideal S128x64 .f32)
    (x0 : Vec Ideal S5000x128 .f32) (x1 : Vec Ideal S128x64 .f32) (r : Fin 5000) (j : Fin 64) (p : Fin 50000)
    (h0 : ∀ d : Fin 128, x0 (ix2 r d) = X (ix2 p d)) (h1 : ∀ d : Fin 128, x1 (ix2 d j) = W (ix2 d j)) :
    k1_pay1 x0 x1 (ix2 r j) = Host.dotGeneral D none X W (ix2 p j) := by
  rw [body_apply, dotGeneral_apply D hD none X W p j]
  exact Finset.sum_congr rfl fun d _ => by rw [h0 d, h1 d]

/-- Where each window's block sits at grid point `t`: the left factor's and the output's at row block `t`, the right
    factor's always at the origin. Decided once over the grid. -/
theorem block_positions : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 10 := Nat.lt_of_lt_of_eq t.isLt N_1

/-- What grid point `t` writes back is block `t` of the product of the whole arrays the region was entered with. -/
theorem flushed_eq (D : DotDims S50000x128 S128x64 S50000x64) (hD : D = DotDims.plain 50000 128 64) (c : Dev nD) (t : Fin cfg1.N) :
    (dat1 V c).flushed 2 t = ((cfg1.win 2).blk t).view.read (Elt Ideal)
      (Host.dotGeneral (F := Ideal) (φ₁ := .f32) (φ₂ := .f32) D none (V c main_v47 : FVec Ideal S50000x128 .f32) (V c main_arg4 : FVec Ideal S128x64 .f32)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x64) zero_offsets]
  obtain ⟨e0, e1, e2, e3, e4, e5⟩ := block_positions t
  have ht := point_lt t
  funext j
  obtain ⟨r, q, rfl⟩ : ∃ (r : Fin 5000) (q : Fin 64), j = ix2 r q := ⟨j 0, j 1, eq_ix2 j⟩
  have hr := r.isLt
  have hq := q.isLt
  show k1_pay1 (iblk1 V c 0 t) (iblk1 V c 1 t) (ix2 r q)
    = Host.dotGeneral (F := Ideal) (φ₁ := .f32) (φ₂ := .f32) D none (V c main_v47 : FVec Ideal S50000x128 .f32) (V c main_arg4 : FVec Ideal S128x64 .f32) (((cfg1.win 2).blk t).view.emb (ix2 r q))
  have hp : ((cfg1.win 2).blk t).view.emb (ix2 r q) = ix2 (⟨5000 * t.val + r.val, by omega⟩ : Fin 50000) q := by
    funext a; apply Fin.ext
    match a with
    | ⟨0, _⟩ => show win1_2.index t (0 : Fin 2) * 5000 + 1 * r.val = 5000 * t.val + r.val; omega
    | ⟨1, _⟩ => show win1_2.index t (1 : Fin 2) * 64 + 1 * q.val = q.val; omega
  rw [hp]
  refine body_is_product_row D hD (V c main_v47) (V c main_arg4) (iblk1 V c 0 t) (iblk1 V c 1 t) r q _ (fun d => ?_) (fun d => ?_)
  · have hd := d.isLt
    show V c main_v47 (((cfg1.win 0).blk t).view.emb (ix2 r d)) = V c main_v47 (ix2 (⟨5000 * t.val + r.val, by omega⟩ : Fin 50000) d)
    refine congrArg (V c main_v47) ?_
    funext a; apply Fin.ext
    match a with
    | ⟨0, _⟩ => show win1_0.index t (0 : Fin 2) * 5000 + 1 * r.val = 5000 * t.val + r.val; omega
    | ⟨1, _⟩ => show win1_0.index t (1 : Fin 2) * 128 + 1 * d.val = d.val; omega
  · have hd := d.isLt
    show V c main_arg4 (((cfg1.win 1).blk t).view.emb (ix2 d q)) = V c main_arg4 (ix2 d q)
    refine congrArg (V c main_arg4) ?_
    funext a; apply Fin.ext
    match a with
    | ⟨0, _⟩ => show win1_1.index t (0 : Fin 2) * 128 + 1 * d.val = d.val; omega
    | ⟨1, _⟩ => show win1_1.index t (1 : Fin 2) * 64 + 1 * q.val = q.val; omega

/-- An index of the output array lies in point `t`'s block iff each coordinate is in the block's range. -/
theorem mem_block (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v48).slice (win1_2.rect t)).set ↔ _
  rw [View.set_slice_whole, Rect.mem_set_unit]
  exact Iff.rfl

/-- Every entry of the output is written: row `p` by grid point `p / 5000`. -/
theorem covered (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  obtain ⟨t, htv⟩ : ∃ t : Fin cfg1.N, t.val = (i 0).val / 5000 := ⟨⟨(i 0).val / 5000, by rw [hN]; omega⟩, rfl⟩
  obtain ⟨e0, e1, e2, e3, e4, e5⟩ := block_positions t
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 64 ≤ (i 1).val ∧ (i 1).val < win1_2.index t (1 : Fin 2) * 64 + 64
    omega

/-- The output array after the region: the product, formed in one piece, of the two arrays the region was entered with. -/
theorem product_array (D : DotDims S50000x128 S128x64 S50000x64) (hD : D = DotDims.plain 50000 128 64) (c : Dev nD) :
    (dat1 V c).arrAt 2 cfg1.N = Host.dotGeneral (F := Ideal) (φ₁ := .f32) (φ₂ := .f32) D none (V c main_v47 : FVec Ideal S50000x128 .f32) (V c main_arg4 : FVec Ideal S128x64 .f32) :=
  (dat1 V c).arrAt_eq_of_cover 2 (Host.dotGeneral (F := Ideal) (φ₁ := .f32) (φ₂ := .f32) D none (V c main_v47 : FVec Ideal S50000x128 .f32) (V c main_arg4 : FVec Ideal S128x64 .f32))
    (fun t _ => flushed_eq V D hD c t) covered

end Cert.KernelIdeal.SecondProduct

end
-- ==== Proof.GcnSpec.lean ====
/-
  A two-layer graph convolution on 50000 nodes and 800000 edges, as one function of its six inputs.

  Every node gets a self loop, so the edge list has 850000 entries: the given edges, then the loops `0 … 49999`.
  The degree of a node is the number of list entries that end in it; an entry from `s` to `d` weighs
  `deg(s)^(-1/2) · deg(d)^(-1/2)`, with `deg^(-1/2)` read as zero where the degree is not positive. One propagation
  step takes a feature matrix `h`: every entry carries row `s` of `h`, scaled by its weight, to node `d`, the rows
  arriving at a node add up, and a bias row is added. The network is
      out = propagate (relu (propagate (x · W1) + b1) · W2) + b2.
  The two programs compared here differ only in how they form the two matrix products `x · W1` and `relu(…) · W2`;
  everything around the products is this one function, written once so that neither side ever has to open it.
-/
import proofs.«102102_j13365938225231_1_alg».proof.Proof.Gen.ReferenceIdeal

noncomputable section

namespace Cert.Gcn

open Idealize.ShloMosaic Cert.ReferenceIdeal Cert.ReferenceIdeal.Gen

variable {F : FTy → Type} [FloatOps F]

/-- Two index lists laid end to end: the 800000 given entries, then the 50000 self loops. -/
def join (a : IVec S800000 32) (b : IVec S50000 32) : IVec S850000 32 :=
  concatenate S850000 0 [⟨S800000, a⟩, ⟨S50000, b⟩] concatenates_S800000_S50000_S850000_d0

/-- A concatenation of an 800000-list and a 50000-list IS `join` of them, whatever proof it carries. -/
theorem join_eq (a : IVec S800000 32) (b : IVec S50000 32) (h : Shape.Concatenates [S800000, S50000] S850000 0) :
    concatenate S850000 0 [⟨S800000, a⟩, ⟨S50000, b⟩] h = join a b := rfl

/-- Where every entry starts: row 0 of the edge array, then the loops. -/
def src (e : IVec S2x800000 32) : IVec S850000 32 :=
  join (shapeCast S800000 (extractStridedSlice S1x800000 ![0, 0] e slices_S2x800000_S1x800000_0_0) shapeCasts_S1x800000_S800000)
    (iotaInDim S50000 32 0)

/-- Where every entry ends: row 1 of the edge array, then the loops. -/
def dst (e : IVec S2x800000 32) : IVec S850000 32 :=
  join (shapeCast S800000 (extractStridedSlice S1x800000 ![1, 0] e slices_S2x800000_S1x800000_1_0) shapeCasts_S1x800000_S800000)
    (iotaInDim S50000 32 0)

/-- A node index as a row lookup takes it: a negative index counts from the end (50000 is added to it). -/
def wrapped (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The degree of every node: a one added at the end node of every entry. -/
def degree (d : IVec S850000 32) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32))

/-- `deg^(-1/2)` where the degree is positive, zero elsewhere. -/
def invSqrtDegree (d : IVec S850000 32) : FVec F S50000 .f32 :=
  select (cmpf (F := F) .ogt (degree d) (broadcastInDim S50000 ![] bcast_S_S50000 (constant S_ .f32 0x00000000#32)))
    (Host.rsqrt (degree d))
    (broadcastInDim S50000 ![] bcast_S_S50000 (id (constant S_ .f32 0x00000000#32)))

/-- The weight of every entry: `deg^(-1/2)` at its start times `deg^(-1/2)` at its end. -/
def edgeWeight (s d : IVec S850000 32) : FVec F S850000 .f32 :=
  mulf (Host.gather gather_S50000_S850000x1_S850000_n_0_n_n_0_1_1 (invSqrtDegree d) (wrapped s))
    (Host.gather gather_S50000_S850000x1_S850000_n_0_n_n_0_1_1 (invSqrtDegree d) (wrapped d))

/-- One propagation step on 128 features: every entry carries its start node's row, scaled by the entry's weight, to
    its end node; the rows arriving at a node add up; the bias row is added to every node. -/
def propagate128 (h : FVec F S50000x128 .f32) (s d : IVec S850000 32) (w : FVec F S850000 .f32) (b : FVec F S128 .f32) :
    FVec F S50000x128 .f32 :=
  addf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 d)
      (mulf (Host.gather gather_S50000x128_S850000x1_S850000x128_1_0_n_n_0_1_1128 h (wrapped s))
        (broadcastInDim S850000x128 ![0, 1] bcast_S850000x1_S850000x128_0_1
          (broadcastInDim S850000x1 ![0] bcast_S850000_S850000x1_0 w))))
    (broadcastInDim S50000x128 ![0, 1] bcast_S1x128_S50000x128_0_1 (broadcastInDim S1x128 ![1] bcast_S128_S1x128_1 b))

/-- The same step on 64 features. -/
def propagate64 (h : FVec F S50000x64 .f32) (s d : IVec S850000 32) (w : FVec F S850000 .f32) (b : FVec F S64 .f32) :
    FVec F S50000x64 .f32 :=
  addf
    (Host.scatterAdd scatter_S50000x64_S850000x1_S850000x64_1_0_0_1
      (broadcastInDim S50000x64 ![] bcast_S_S50000x64 (constant S_ .f32 0x00000000#32))
      (broadcastInDim S850000x1 ![0] bcast_S850000_S850000x1_0 d)
      (mulf (Host.gather gather_S50000x64_S850000x1_S850000x64_1_0_n_n_0_1_164 h (wrapped s))
        (broadcastInDim S850000x64 ![0, 1] bcast_S850000x1_S850000x64_0_1
          (broadcastInDim S850000x1 ![0] bcast_S850000_S850000x1_0 w))))
    (broadcastInDim S50000x64 ![0, 1] bcast_S1x64_S50000x64_0_1 (broadcastInDim S1x64 ![1] bcast_S64_S1x64_1 b))

/-- The positive part, entry by entry. -/
def relu128 (v : FVec F S50000x128 .f32) : FVec F S50000x128 .f32 :=
  maximumf v (broadcastInDim S50000x128 ![] bcast_S_S50000x128 (constant S_ .f32 0x00000000#32))

/-- The hidden layer from the first product `p1 = x · W1`. -/
def hidden (p1 : FVec F S50000x128 .f32) (e : IVec S2x800000 32) (b1 : FVec F S128 .f32) : FVec F S50000x128 .f32 :=
  relu128 (propagate128 p1 (src e) (dst e) (edgeWeight (src e) (dst e)) b1)

/-- The output from the second product `p2 = hidden · W2`. -/
def output (p2 : FVec F S50000x64 .f32) (e : IVec S2x800000 32) (b2 : FVec F S64 .f32) : FVec F S50000x64 .f32 :=
  propagate64 p2 (src e) (dst e) (edgeWeight (src e) (dst e)) b2

/-- The whole network, the two products as plain inner products of rows with columns. -/
def net (x : FVec F S50000x512 .f32) (e : IVec S2x800000 32) (w1 : FVec F S512x128 .f32) (b1 : FVec F S128 .f32)
    (w2 : FVec F S128x64 .f32) (b2 : FVec F S64 .f32) : FVec F S50000x64 .f32 :=
  output (Host.dotGeneral dot_S50000x128_S128x64_S50000x64_1_0_0_1_n_n none
      (hidden (Host.dotGeneral dot_S50000x512_S512x128_S50000x128_1_0_0_1_n_n none x w1) e b1) w2) e b2

end Cert.Gcn

end
-- ==== Proof.KernelValue.lean ====
/-
  What the kernel program returns, as the network function of its six inputs.

  The last boundary's contents at the result buffer unwind through the program's eight stretches: a host stretch
  applies its operations to what the boundary before it holds; the first region leaves in its output array the
  product, formed in one piece, of the input array and the first weight matrix, and the second region the product of
  the hidden layer and the second weight matrix (FirstProduct, SecondProduct), every other buffer kept. Read
  back to the launch memory, the term is the network function `Cert.Gcn.net` of the six argument arrays.
-/
import proofs.«102102_j13365938225231_1_alg».proof.Proof.FirstProduct
import proofs.«102102_j13365938225231_1_alg».proof.Proof.SecondProduct
import proofs.«102102_j13365938225231_1_alg».proof.Proof.GcnSpec
import Idealize.ShloMosaic.Lib.StableHlo.Run

noncomputable section

namespace Cert.KernelIdeal.NetValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

-- (the reference in each left-hand side below is kept out of the rewriting index, as the library does for its own
-- result lemmas: a reference unfolds to its projections, which the index would otherwise key on)

/-- After the first region its output array holds the product of the input array and the first weight matrix, as
    the region found them. -/
theorem first_product (c : Dev nD) :
    W4 m ρ c (no_index (Proc.devRef .tc main_v30))
      = Host.dotGeneral (F := Ideal) (φ₁ := .f32) (φ₂ := .f32) Cert.ReferenceIdeal.dot_S50000x512_S512x128_S50000x128_1_0_0_1_n_n none
          (W3 m ρ c (Proc.devRef .tc main_arg0) : FVec Ideal S50000x512 .f32) (W3 m ρ c (Proc.devRef .tc main_arg2) : FVec Ideal S512x128 .f32) :=
  (W4_arr m ρ c 2).trans (FirstProduct.product_array (V3 m ρ) _ rfl c)

/-- The first region keeps every buffer that is none of its three arrays. -/
theorem first_keeps (c : Dev nD) (b : Ref sig .tc) (hb : main_arg0 ≠ b ∧ main_arg2 ≠ b ∧ main_v30 ≠ b) :
    W4 m ρ c (no_index (Proc.devRef .tc b)) = W3 m ρ c (Proc.devRef .tc b) :=
  W4_of_ne m ρ c b fun w => match w with
    | ⟨0, _⟩ => hb.1
    | ⟨1, _⟩ => hb.2.1
    | ⟨2, _⟩ => hb.2.2

/-- After the second region its output array holds the product of the hidden layer and the second weight matrix, as
    the region found them. -/
theorem second_product (c : Dev nD) :
    W7 m ρ c (no_index (Proc.devRef .tc main_v48))
      = Host.dotGeneral (F := Ideal) (φ₁ := .f32) (φ₂ := .f32) Cert.ReferenceIdeal.dot_S50000x128_S128x64_S50000x64_1_0_0_1_n_n none
          (W6 m ρ c (Proc.devRef .tc main_v47) : FVec Ideal S50000x128 .f32) (W6 m ρ c (Proc.devRef .tc main_arg4) : FVec Ideal S128x64 .f32) :=
  (W7_arr m ρ c 2).trans (SecondProduct.product_array (V6 m ρ) _ rfl c)

/-- The second region keeps every buffer that is none of its three arrays. -/
theorem second_keeps (c : Dev nD) (b : Ref sig .tc) (hb : main_v47 ≠ b ∧ main_arg4 ≠ b ∧ main_v48 ≠ b) :
    W7 m ρ c (no_index (Proc.devRef .tc b)) = W6 m ρ c (Proc.devRef .tc b) :=
  W7_of_ne m ρ c b fun w => match w with
    | ⟨0, _⟩ => hb.1
    | ⟨1, _⟩ => hb.2.1
    | ⟨2, _⟩ => hb.2.2

/-- One rewriting pass over a stretch of host operations: each operation's result at its own buffer is its function of
    its operands' contents, and at any other buffer what was there; a concatenation is named (`Cert.Gcn.join`) so
    that the pass reaches its two operands; a transport between a buffer's type and the same type spelt out is dropped. -/
local macro "host_results" : tactic =>
  `(tactic| simp (disch := decide) only [after_cons, after_nil,
      nullary_result', unary_result', binary_result', ternary_result', reshape_result',
      nullary_result_ne', unary_result_ne', binary_result_ne', ternary_result_ne', reshape_result_ne',
      Cert.Gcn.join_eq, cast_eq])

/-! ## Before the first region: the edge list, the edge weights, the arguments as launched -/

theorem src_at_first (c : Dev nD) : W3 m ρ c (Proc.devRef .tc main_v3) = Cert.Gcn.src (m ((c.tc : Thread nD τ).loc main_arg1)) := by
  simp only [W3, W2, W1]; host_results; rfl

theorem dst_at_first (c : Dev nD) : W3 m ρ c (Proc.devRef .tc main_v6) = Cert.Gcn.dst (m ((c.tc : Thread nD τ).loc main_arg1)) := by
  simp only [W3, W2, W1]; host_results; rfl

theorem weight_at_first (c : Dev nD) :
    W3 m ρ c (Proc.devRef .tc main_v29)
      = Cert.Gcn.edgeWeight (F := Ideal) (Cert.Gcn.src (m ((c.tc : Thread nD τ).loc main_arg1))) (Cert.Gcn.dst (m ((c.tc : Thread nD τ).loc main_arg1))) := by
  simp only [W3, W2, W1]; host_results; rfl

theorem arg0_at_first (c : Dev nD) : W3 m ρ c (Proc.devRef .tc main_arg0) = m ((c.tc : Thread nD τ).loc main_arg0) := by
  simp only [W3, W2, W1]; host_results
theorem arg2_at_first (c : Dev nD) : W3 m ρ c (Proc.devRef .tc main_arg2) = m ((c.tc : Thread nD τ).loc main_arg2) := by
  simp only [W3, W2, W1]; host_results
theorem arg3_at_first (c : Dev nD) : W3 m ρ c (Proc.devRef .tc main_arg3) = m ((c.tc : Thread nD τ).loc main_arg3) := by
  simp only [W3, W2, W1]; host_results
theorem arg4_at_first (c : Dev nD) : W3 m ρ c (Proc.devRef .tc main_arg4) = m ((c.tc : Thread nD τ).loc main_arg4) := by
  simp only [W3, W2, W1]; host_results
theorem arg5_at_first (c : Dev nD) : W3 m ρ c (Proc.devRef .tc main_arg5) = m ((c.tc : Thread nD τ).loc main_arg5) := by
  simp only [W3, W2, W1]; host_results

/-! ## Before the second region: the hidden layer; the edge list, the weights and the arguments carried over -/

/-- The hidden layer: the first region's product, propagated along the edges, biased, its positive part taken. -/
theorem hidden_at_second (c : Dev nD) :
    W6 m ρ c (Proc.devRef .tc main_v47)
      = Cert.Gcn.hidden (F := Ideal) (Host.dotGeneral (F := Ideal) (φ₁ := .f32) (φ₂ := .f32) Cert.ReferenceIdeal.dot_S50000x512_S512x128_S50000x128_1_0_0_1_n_n none
          (m ((c.tc : Thread nD τ).loc main_arg0)) (m ((c.tc : Thread nD τ).loc main_arg2)))
          (m ((c.tc : Thread nD τ).loc main_arg1)) (m ((c.tc : Thread nD τ).loc main_arg3)) := by
  simp only [W6, W5]; host_results
  simp (disch := decide) only [first_product, first_keeps]
  rw [src_at_first m ρ c, dst_at_first m ρ c, weight_at_first m ρ c, arg0_at_first m ρ c, arg2_at_first m ρ c, arg3_at_first m ρ c]
  rfl

theorem src_at_second (c : Dev nD) : W6 m ρ c (Proc.devRef .tc main_v3) = Cert.Gcn.src (m ((c.tc : Thread nD τ).loc main_arg1)) := by
  simp only [W6, W5]; host_results
  simp (disch := decide) only [first_keeps]
  exact src_at_first m ρ c

theorem dst_at_second (c : Dev nD) : W6 m ρ c (Proc.devRef .tc main_v6) = Cert.Gcn.dst (m ((c.tc : Thread nD τ).loc main_arg1)) := by
  simp only [W6, W5]; host_results
  simp (disch := decide) only [first_keeps]
  exact dst_at_first m ρ c

theorem weight_at_second (c : Dev nD) :
    W6 m ρ c (Proc.devRef .tc main_v29)
      = Cert.Gcn.edgeWeight (F := Ideal) (Cert.Gcn.src (m ((c.tc : Thread nD τ).loc main_arg1))) (Cert.Gcn.dst (m ((c.tc : Thread nD τ).loc main_arg1))) := by
  simp only [W6, W5]; host_results
  simp (disch := decide) only [first_keeps]
  exact weight_at_first m ρ c

theorem arg4_at_second (c : Dev nD) : W6 m ρ c (Proc.devRef .tc main_arg4) = m ((c.tc : Thread nD τ).loc main_arg4) := by
  simp only [W6, W5]; host_results
  simp (disch := decide) only [first_keeps]
  exact arg4_at_first m ρ c

theorem arg5_at_second (c : Dev nD) : W6 m ρ c (Proc.devRef .tc main_arg5) = m ((c.tc : Thread nD τ).loc main_arg5) := by
  simp only [W6, W5]; host_results
  simp (disch := decide) only [first_keeps]
  exact arg5_at_first m ρ c

/-! ## After the last stretch -/

/-- The last boundary's contents at the result buffer are the network function of the launch contents of the six
    argument buffers: the second region's product of the hidden layer, propagated along the edges and biased. -/
theorem result_eq (c : Dev nD) :
    W8 m ρ c (Proc.devRef .tc main_v64)
      = Cert.Gcn.net (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  simp only [W8]; host_results
  simp (disch := decide) only [second_product, second_keeps]
  rw [hidden_at_second m ρ c, src_at_second m ρ c, dst_at_second m ρ c, weight_at_second m ρ c, arg4_at_second m ρ c, arg5_at_second m ρ c]
  rfl

end Cert.KernelIdeal.NetValue

end
-- ==== Proof.ReferenceValue.lean ====
/-
  What the reference program returns, as the network function of its six inputs.

  The reference is one line of 83 host operations. Read at the result buffer, the fold of their results over the
  launch contents unwinds, one operation at a time, to a term over the six argument arrays; that term is the network
  function `Cert.Gcn.net`, its two products being the reference's own `dot_general`s, with nothing else to compare.
-/
import proofs.«102102_j13365938225231_1_alg».proof.Proof.RefRunPatched
import proofs.«102102_j13365938225231_1_alg».proof.Proof.GcnSpec

noncomputable section

namespace Cert.ReferenceIdeal.NetValue

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 16384 in
set_option maxHeartbeats 8000000 in
/-- The fold of the reference's operations, read at its result buffer, is the network function of the launch
    contents of the six argument buffers. -/
theorem result_eq (m : (ℓ : Loc nD τ sig) → Buf (Elt F) ℓ) (c : Dev nD) :
    after ops (launchContents m c) (Proc.devRef .tc main_v64)
      = Cert.Gcn.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  -- each operation's result at its own buffer is its function of its operands' contents, and at any other buffer
  -- what was there; a concatenation is named so that the rewriting reaches its two operands
  simp (disch := decide) only [after_cons, after_nil,
    nullary_result', unary_result', binary_result', ternary_result', reshape_result',
    nullary_result_ne', unary_result_ne', binary_result_ne', ternary_result_ne', reshape_result_ne',
    Cert.Gcn.join_eq]
  rfl

end Cert.ReferenceIdeal.NetValue

end
-- ==== Proof.lean ====
/-
  Two programs for a two-layer graph convolution on 50000 nodes (see Proof/GcnSpec.lean for the function): the kernel
  program forms each layer's matrix product in a pipelined region, block of rows by block of rows, the operands narrowed
  to a shorter float format on the way into the multiplier; the reference forms each product in one piece. Everything
  around the products — the self loops, the degrees and edge weights, the gathers along edges, the sums over incoming
  edges, the biases, the positive part — is the same line of host operations in both.

  On the extended reals a change of float format is the identity and a product accumulated into zero is the plain
  inner product of a row with a column, which does not know how the rows were grouped. So each region's output array is
  the reference's product of the same operands (Proof/FirstProduct.lean, Proof/SecondProduct.lean), and both programs
  end with their result at one function of the six inputs (Proof/KernelValue.lean, Proof/ReferenceValue.lean). No
  law of arithmetic is used beyond that, and the inputs' finiteness is never opened.

  The kernel program's and its idealization's frames are the generated ones; the reference's frame is its run with the
  result dropped; the idealization rewrote nothing, so there is nothing to preserve.
-/
import proofs.«102102_j13365938225231_1_alg».proof.Defs
import proofs.«102102_j13365938225231_1_alg».proof.Proof.Gen.Kernel
import proofs.«102102_j13365938225231_1_alg».proof.Proof.Gen.Kernel.Skeleton
import proofs.«102102_j13365938225231_1_alg».proof.Proof.Gen.Kernel.Launch
import proofs.«102102_j13365938225231_1_alg».proof.Proof.Gen.Kernel.Points
import proofs.«102102_j13365938225231_1_alg».proof.Proof.Gen.Kernel.Frame
import proofs.«102102_j13365938225231_1_alg».proof.Proof.Gen.KernelIdeal
import proofs.«102102_j13365938225231_1_alg».proof.Proof.Gen.KernelIdeal.Skeleton
import proofs.«102102_j13365938225231_1_alg».proof.Proof.Gen.KernelIdeal.Launch
import proofs.«102102_j13365938225231_1_alg».proof.Proof.Gen.KernelIdeal.Points
import proofs.«102102_j13365938225231_1_alg».proof.Proof.Gen.KernelIdeal.Frame
import proofs.«102102_j13365938225231_1_alg».proof.Proof.Gen.ReferenceIdeal
import proofs.«102102_j13365938225231_1_alg».proof.Proof.Gen.Pre_finite_inputs
import proofs.«102102_j13365938225231_1_alg».proof.Proof.KernelRun
import proofs.«102102_j13365938225231_1_alg».proof.Proof.KernelValue
import proofs.«102102_j13365938225231_1_alg».proof.Proof.RefRunPatched
import proofs.«102102_j13365938225231_1_alg».proof.Proof.ReferenceValue
import Idealize.ShloMosaic.Adequacy
import Idealize.ShloMosaic.Init

noncomputable section

namespace Cert.Proof

open Idealize.ShloMosaic Idealize.SL.Sem

namespace Claims

theorem frame_kernel : Cert.frame_Kernel := fun m ρ _ => Cert.Kernel.Gen.frame m ρ

theorem frame_kernel_ideal : Cert.frame_KernelIdeal := fun m ρ _ => Cert.KernelIdeal.Gen.frame m ρ

/-- The reference's run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the six inputs both programs end with their result at the network function of those
    inputs: the kernel program's last boundary read at its result buffer, the reference's fold read at its own. -/
theorem algebraic : Cert.algebraic_KernelIdeal_ReferenceIdeal := by
  intro m ρ m' ρ' _ hagree
  refine ⟨fun c => Cert.Gcn.net (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.NetValue.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.NetValue.result_eq m' c, (hagree c).1, (hagree c).2.1, (hagree c).2.2.1, (hagree c).2.2.2.1,
      (hagree c).2.2.2.2.1, (hagree c).2.2.2.2.2]

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, Claims.preserves, Claims.algebraic⟩

end Cert.Proof

end
